-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x128 : Shape := ⟨4, ![8, 64, 512, 128]⟩
abbrev S128x256 : Shape := ⟨2, ![128, 256]⟩
abbrev S_ : Shape := ⟨0, ![]⟩

class Facts : Prop where
  bcast_S_S8x64x512x128 : S_.BroadcastsInDim S8x64x512x128 (![] : Fin 0 → Fin S8x64x512x128.rank)
  reducesTo_S8x64x512x128_S_d0_1_2_3 : S8x64x512x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S8x64x512x128 .f32) (main_arg1 : FVec F S128x256 .f32) : IVec S_ 1 :=
  let main_v0 : FVec F S8x64x512x128 .f32 := Host.absf main_arg0
  let main_cst : FVec F S_ .f32 := constant S_ .f32 0x7F800000#32
  let main_v1 : FVec F S8x64x512x128 .f32 := broadcastInDim S8x64x512x128 ![] bcast_S_S8x64x512x128 main_cst
  let main_v2 : IVec S8x64x512x128 1 := cmpf .olt main_v0 main_v1
  let main_c : IVec S_ 1 := constantI S_ 1 1#1
  let main_v3 : IVec S_ 1 := (fun x v => Host.reduce IntOp.andi x v reducesTo_S8x64x512x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S8x64x512x128 : Shape := ⟨4, ![8, 64, 512, 128]⟩
abbrev S128x256 : Shape := ⟨2, ![128, 256]⟩
abbrev S512x512x128 : Shape := ⟨3, ![512, 512, 128]⟩
abbrev S512x512x512 : Shape := ⟨3, ![512, 512, 512]⟩
abbrev S8x512x128 : Shape := ⟨3, ![8, 512, 128]⟩
abbrev S8x512x512 : Shape := ⟨3, ![8, 512, 512]⟩
abbrev S1x512x128 : Shape := ⟨3, ![1, 512, 128]⟩
abbrev S512x128 : Shape := ⟨2, ![512, 128]⟩
abbrev S512x256 : Shape := ⟨2, ![512, 256]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1x512x512 : Shape := ⟨3, ![1, 512, 512]⟩
abbrev S8x64x512x512 : Shape := ⟨4, ![8, 64, 512, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x64x512x128, .f32⟩
  | .hbm, ⟨1, _⟩ => ⟨S128x256, .f32⟩
  | .hbm, ⟨2, _⟩ => ⟨S512x512x128, .f32⟩
  | .hbm, ⟨3, _⟩ => ⟨S512x512x128, .f32⟩
  | .hbm, ⟨4, _⟩ => ⟨S512x512x512, .f32⟩
  | .hbm, ⟨5, _⟩ => ⟨S8x64x512x128, .f32⟩
  | .hbm, ⟨6, _⟩ => ⟨S8x64x512x512, .f32⟩
  | .local _ .vmem, ⟨0, _⟩ => ⟨S8x512x128, .f32⟩
  | .local _ .vmem, ⟨1, _⟩ => ⟨S8x512x128, .f32⟩
  | .local _ .vmem, ⟨2, _⟩ => ⟨S128x256, .f32⟩
  | .local _ .vmem, ⟨3, _⟩ => ⟨S8x512x128, .f32⟩
  | .local _ .vmem, ⟨4, _⟩ => ⟨S8x512x128, .f32⟩
  | .local _ .vmem, ⟨5, _⟩ => ⟨S8x512x512, .f32⟩
  | .local _ .vmem, ⟨6, _⟩ => ⟨S8x512x512, .f32⟩
  | _, _ => ⟨S8x64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3 : Index := Scalar.indexCast arg5
  let c0_2 : Index := 0#32
  let c0_3 : Index := 0#32
  ![v3.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v25 : Index := Scalar.indexCast arg5
  let c0_7 : Index := 0#32
  let c0_8 : Index := 0#32
  ![v25.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x64x512x128_S512x512x128 : S8x64x512x128.ShapeCasts S512x512x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  h_S1x512x128 : 0 < S1x512x128.numel
  shapeCasts_S1x512x128_S512x128 : S1x512x128.ShapeCasts S512x128
  slices_S512x256_o0_0_S512x64 : S512x256.Slices ![0, 0] S512x64
  slices_S512x256_o0_64_S512x64 : S512x256.Slices ![0, 64] S512x64
  slices_S512x256_o0_128_S512x128 : S512x256.Slices ![0, 128] S512x128
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  h_S1x512x512 : 0 < S1x512x512.numel
  shapeCasts_S1x512x512_S512x512 : S1x512x512.ShapeCasts S512x512
  shapeCasts_S512x512_S1x512x512 : S512x512.ShapeCasts S1x512x512
  shapeCasts_S512x128_S1x512x128 : S512x128.ShapeCasts S1x512x128
  shapeCasts_S512x512x128_S8x64x512x128 : S512x512x128.ShapeCasts S8x64x512x128
  shapeCasts_S512x512x512_S8x64x512x512 : S512x512x512.ShapeCasts S8x64x512x512
  dot_S512x128_S128x256_S512x256_1_0_0_1_n_n_wf : DotDims.WF S512x128 S128x256 S512x256 [1] [0] [0] [1] [] []
  dot_S512x64_S64x512_S512x512_1_0_0_1_n_n_wf : DotDims.WF S512x64 S64x512 S512x512 [1] [0] [0] [1] [] []
  dot_S512x512_S512x128_S512x128_1_0_0_1_n_n_wf : DotDims.WF S512x512 S512x128 S512x128 [1] [0] [0] [1] [] []
  hrank0 : 0 < grid0.rank
  k0_t1_ok : k0_t1_loop.OK
  k0_off1_inb : ∀ k0_t1 : Fin k0_t1_loop.trips, ∀ a, (k0_off1 k0_t1) a + S1x512x128.size a ≤ S8x512x128.size a
  k0_off2_inb : ∀ k0_t1 : Fin k0_t1_loop.trips, ∀ a, (k0_off2 k0_t1) a + S1x512x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S512x512x128.size a
  hwx0_0 : ∀ i : grid0.Coords, EltTy.bits .f32 = 32 ∨ (Rect.block (s := S512x512x128) S8x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x128.size a ≤ S512x512x128.size a
  hwx0_2 : ∀ i : grid0.Coords, EltTy.bits .f32 = 32 ∨ (Rect.block (s := S512x512x128) S8x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x512.size a ≤ S512x512x512.size a
  hwx0_3 : ∀ i : grid0.Coords, EltTy.bits .f32 = 32 ∨ (Rect.block (s := S512x512x512) S8x512x512.size (cc0_transform_3 i) (hinb0_3 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x512x128 : Shape := ⟨4, ![8, 64, 512, 128]⟩
abbrev S128x256 : Shape := ⟨2, ![128, 256]⟩
abbrev S8x64x512x256 : Shape := ⟨4, ![8, 64, 512, 256]⟩
abbrev S8x64x512x64 : Shape := ⟨4, ![8, 64, 512, 64]⟩
abbrev S8x64x512x512 : Shape := ⟨4, ![8, 64, 512, 512]⟩
abbrev S_ : Shape := ⟨0, ![]⟩
abbrev S8x64x512 : Shape := ⟨3, ![8, 64, 512]⟩
abbrev S8x64x512x1 : Shape := ⟨4, ![8, 64, 512, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x64x512x128, .f32⟩
  | .hbm, ⟨1, _⟩ => ⟨S128x256, .f32⟩
  | .hbm, ⟨2, _⟩ => ⟨S8x64x512x256, .f32⟩
  | .hbm, ⟨3, _⟩ => ⟨S8x64x512x64, .f32⟩
  | .hbm, ⟨4, _⟩ => ⟨S8x64x512x64, .f32⟩
  | .hbm, ⟨5, _⟩ => ⟨S8x64x512x128, .f32⟩
  | .hbm, ⟨6, _⟩ => ⟨S8x64x512x512, .f32⟩
  | .hbm, ⟨7, _⟩ => ⟨S_, .f32⟩
  | .hbm, ⟨8, _⟩ => ⟨S8x64x512, .f32⟩
  | .hbm, ⟨9, _⟩ => ⟨S_, .f32⟩
  | .hbm, ⟨10, _⟩ => ⟨S8x64x512, .f32⟩
  | .hbm, ⟨11, _⟩ => ⟨S8x64x512, .f32⟩
  | .hbm, ⟨12, _⟩ => ⟨S8x64x512x1, .f32⟩
  | .hbm, ⟨13, _⟩ => ⟨S8x64x512x512, .f32⟩
  | .hbm, ⟨14, _⟩ => ⟨S8x64x512x512, .f32⟩
  | .hbm, ⟨15, _⟩ => ⟨S8x64x512x512, .f32⟩
  | .hbm, ⟨16, _⟩ => ⟨S_, .f32⟩
  | .hbm, ⟨17, _⟩ => ⟨S8x64x512, .f32⟩
  | .hbm, ⟨18, _⟩ => ⟨S8x64x512x1, .f32⟩
  | .hbm, ⟨19, _⟩ => ⟨S8x64x512x512, .f32⟩
  | .hbm, ⟨20, _⟩ => ⟨S8x64x512x512, .f32⟩
  | .hbm, ⟨21, _⟩ => ⟨S8x64x512x128, .f32⟩
  | .hbm, ⟨22, _⟩ => ⟨S8x64x512x128, .f32⟩
  | _, _ => ⟨S8x64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  slices_S8x64x512x256_S8x64x512x64_0_0_0_0 : S8x64x512x256.Slices ![0, 0, 0, 0] S8x64x512x64
  slices_S8x64x512x256_S8x64x512x64_0_0_0_64 : S8x64x512x256.Slices ![0, 0, 0, 64] S8x64x512x64
  slices_S8x64x512x256_S8x64x512x128_0_0_0_128 : S8x64x512x256.Slices ![0, 0, 0, 128] S8x64x512x128
  reducesTo_S8x64x512x512_S8x64x512_d3 : S8x64x512x512.ReducesTo [3] S8x64x512
  h_S_ : 0 < S_.numel
  bcast_S_S8x64x512 : S_.BroadcastsInDim S8x64x512 (![] : Fin 0 → Fin S8x64x512.rank)
  bcast_S8x64x512_S8x64x512x1_0_1_2 : S8x64x512.BroadcastsInDim S8x64x512x1 (![0, 1, 2] : Fin 3 → Fin S8x64x512x1.rank)
  bcast_S8x64x512x1_S8x64x512x512_0_1_2_3 : S8x64x512x1.BroadcastsInDim S8x64x512x512 (![0, 1, 2, 3] : Fin 4 → Fin S8x64x512x512.rank)
  dot_S8x64x512x128_S128x256_S8x64x512x256_3_0_012_1_n_n_wf : DotDims.WF S8x64x512x128 S128x256 S8x64x512x256 [3] [0] [0, 1, 2] [1] [] []
  dot_S8x64x512x64_S8x64x512x64_S8x64x512x512_3_3_2_2_01_01_wf : DotDims.WF S8x64x512x64 S8x64x512x64 S8x64x512x512 [3] [3] [2] [2] [0, 1] [0, 1]
  dot_S8x64x512x512_S8x64x512x128_S8x64x512x128_3_2_2_3_01_01_wf : DotDims.WF S8x64x512x512 S8x64x512x128 S8x64x512x128 [3] [2] [2] [3] [0, 1] [0, 1]

variable [Facts₀]

def dot_S8x64x512x128_S128x256_S8x64x512x256_3_0_012_1_n_n : DotDims S8x64x512x128 S128x256 S8x64x512x256 where
  lhsContracting := [3]
  rhsContracting := [0]
  lhsNonContracting := [0, 1, 2]
  rhsNonContracting := [1]
  lhsBatch := []
  rhsBatch := []
  wf := dot_S8x64x512x128_S128x256_S8x64x512x256_3_0_012_1_n_n_wf
def dot_S8x64x512x64_S8x64x512x64_S8x64x512x512_3_3_2_2_01_01 : DotDims S8x64x512x64 S8x64x512x64 S8x64x512x512 where
  lhsContracting := [3]
  rhsContracting := [3]
  lhsNonContracting := [2]
  rhsNonContracting := [2]
  lhsBatch := [0, 1]
  rhsBatch := [0, 1]
  wf := dot_S8x64x512x64_S8x64x512x64_S8x64x512x512_3_3_2_2_01_01_wf
def dot_S8x64x512x512_S8x64x512x128_S8x64x512x128_3_2_2_3_01_01 : DotDims S8x64x512x512 S8x64x512x128 S8x64x512x128 where
  lhsContracting := [3]
  rhsContracting := [2]
  lhsNonContracting := [2]
  rhsNonContracting := [3]
  lhsBatch := [0, 1]
  rhsBatch := [0, 1]
  wf := dot_S8x64x512x512_S8x64x512x128_S8x64x512x128_3_2_2_3_01_01_wf

class Facts : Prop extends Facts₀ where

variable [Facts]
-- ==== Proof.RowAttention.lean ====
/-
  One row of single-head attention over the extended reals, entry by entry.

  A row is a 512 × 128 matrix X (512 positions, 128 channels); W is the 128 × 256 projection. The projection
  P = X · W holds three blocks of columns: queries (columns 0 to 63), keys (64 to 127), values (128 to 255).
  The score of position a against position b is the inner product of query row a with key row b. Each score row
  is shifted by its maximum (the fold of max from the pattern of minus infinity), exponentiated, and divided by the
  sum of the exponentials: the weight matrix. The output row a is X's row a plus the weights' row a applied to the
  value columns. Nothing here is simplified: both programs compute exactly these sums, folds and quotients, so the
  definitions below are the common reading of the two, and no law of arithmetic beyond max i (fold max i f) = fold max i f
  and 0 + s = s is needed to meet them.
-/
import Idealize.ShloMosaic.PureOps.Ideal
import Idealize.ShloMosaic.Lib.ValueIdx

noncomputable section

open scoped BigOperators

namespace Cert.RowAttention

open Idealize.ShloMosaic

/-- Column c of the query block, as a column of the projection. -/
def qcol (c : Fin 64) : Fin 256 := ⟨c.val, by have := c.isLt; omega⟩
/-- Column c of the key block. -/
def kcol (c : Fin 64) : Fin 256 := ⟨64 + c.val, by have := c.isLt; omega⟩
/-- Column c of the value block. -/
def vcol (c : Fin 128) : Fin 256 := ⟨128 + c.val, by have := c.isLt; omega⟩

variable (X : Fin 512 → Fin 128 → EReal) (W : Fin 128 → Fin 256 → EReal)

/-- The projection X · W at (a, d). -/
def proj (a : Fin 512) (d : Fin 256) : EReal := ∑ c : Fin 128, X a c * W c d

/-- Query row a against key row b. -/
def score (a b : Fin 512) : EReal := ∑ c : Fin 64, proj X W a (qcol c) * proj X W b (kcol c)

/-- The largest score of row a: the fold of max over the row from the pattern of minus infinity. -/
def rowMax (a : Fin 512) : EReal :=
  (Finset.univ : Finset (Fin 512)).fold max (Ideal.ofBits .f32 0xFF800000#32) (fun b => score X W a b)

/-- The shifted exponential at (a, b). -/
def expo (a b : Fin 512) : EReal := Ideal.exp (score X W a b - rowMax X W a)

/-- The normaliser of row a. -/
def rowSum (a : Fin 512) : EReal := ∑ b : Fin 512, expo X W a b

/-- The attention weight at (a, b). -/
def weight (a b : Fin 512) : EReal := Ideal.div (expo X W a b) (rowSum X W a)

/-- The weights' row a applied to value column c. -/
def mixed (a : Fin 512) (c : Fin 128) : EReal := ∑ b : Fin 512, weight X W a b * proj X W b (vcol c)

/-- The output at (a, c): the input plus the mixed values. -/
def out (a : Fin 512) (c : Fin 128) : EReal := X a c + mixed X W a c

/-- The fold of max from i dominates i, so taking the maximum with i again changes nothing. -/
theorem max_init_fold {ι : Type*} (s : Finset ι) (i : EReal) (f : ι → EReal) :
    max i (s.fold max i f) = s.fold max i f :=
  max_eq_right (Finset.le_fold_max i |>.mpr (Or.inl le_rfl))

/-! ## The whole arrays

The input is 8 × 64 rows; row (g, h) of the input array is the matrix X of the definitions above, and the two results
hold, at (g, h, a, ·), the output and the weights of that row. -/

open Idealize.ShloMosaic.ValueIdx

/-- Row (g, h) of the input array, as a 512 × 128 matrix. -/
def rowOf (x : (⟨4, ![8, 64, 512, 128]⟩ : Shape).Idx → EReal) (g : Fin 8) (h : Fin 64) : Fin 512 → Fin 128 → EReal :=
  fun a c => x (ix4 g h a c)

/-- The projection array as a matrix. -/
def matOf (w : (⟨2, ![128, 256]⟩ : Shape).Idx → EReal) : Fin 128 → Fin 256 → EReal := fun c d => w (ix2 c d)

/-- The weights of every row: entry (g, h, a, b) is the weight of position a on position b in row (g, h). -/
def weightsArray (x : (⟨4, ![8, 64, 512, 128]⟩ : Shape).Idx → EReal) (w : (⟨2, ![128, 256]⟩ : Shape).Idx → EReal) :
    (⟨4, ![8, 64, 512, 512]⟩ : Shape).Idx → EReal :=
  fun i => weight (rowOf x (i 0) (i 1)) (matOf w) (i 2) (i 3)

/-- The outputs of every row: entry (g, h, a, c). -/
def outputArray (x : (⟨4, ![8, 64, 512, 128]⟩ : Shape).Idx → EReal) (w : (⟨2, ![128, 256]⟩ : Shape).Idx → EReal) :
    (⟨4, ![8, 64, 512, 128]⟩ : Shape).Idx → EReal :=
  fun i => out (rowOf x (i 0) (i 1)) (matOf w) (i 2) (i 3)

end Cert.RowAttention

end
-- ==== Proof.ReferenceRows.lean ====
/-
  The reference program read entry by entry as one row of single-head attention.

  The reference works on the whole 8 × 64 × 512 × 128 array at once: the projection of every row by W, its three
  blocks of columns, the scores of every row batched over the two leading axes, the row maxima, the shifted
  exponentials, their row sums, the quotient, the product with the value columns and the residual sum. Read at the
  entry (g, h, a, ·), each of these stages is the quantity of the same name of row (g, h): the projection is the
  sum over the 128 channels, a block of columns is the projection at the embedded column, a batched product is the
  sum over its contracted coordinate, the maximum over the last axis is the fold of max over that axis from minus
  infinity (and taking the maximum with minus infinity once more changes nothing), the sum over the last axis from
  zero is the sum, and a value repeated along the last axis reads the value of its row. The two results are then the
  weights and the outputs of every row.
-/
import proofs.«182045_j34694745817831_2_alg».proof.Proof.Gen.ReferenceIdeal.Read
import proofs.«182045_j34694745817831_2_alg».proof.Proof.RowAttention
import Idealize.ShloMosaic.Lib.ValueIdx
import Idealize.ShloMosaic.PureOps.Ideal.Laws
import Idealize.ShloMosaic.PureOps.Reduce

noncomputable section

open scoped BigOperators

namespace Cert.ReferenceRows

open Cert.ReferenceIdeal Cert.ReferenceIdeal.Gen Cert.ReferenceIdeal.Read Cert.RowAttention
open Idealize.ShloMosaic Idealize.ShloMosaic.ValueIdx

variable (x0 : (⟨S8x64x512x128, .f32⟩ : BufTy).Contents (Elt Ideal))
  (x1 : (⟨S128x256, .f32⟩ : BufTy).Contents (Elt Ideal))

/-! ## The projection and its three blocks of columns -/

/-- The projection stage at (g, h, a, d) is the projection of row (g, h) at (a, d). -/
theorem v0_at (g : Fin 8) (h : Fin 64) (a : Fin 512) (d : Fin 256) :
    val_main_v0 (F := Ideal) x0 x1 (ix4 g h a d) = proj (rowOf x0 g h) (matOf x1) a d := by
  rw [val_main_v0_apply]
  unfold proj
  refine Finset.sum_congr rfl fun k _ => ?_
  have el : lidx_main_v0 (ix4 g h a d) k = ix4 g h a k := funext fun e => Fin.ext (by
    match e with | ⟨0, _⟩ => rfl | ⟨1, _⟩ => rfl | ⟨2, _⟩ => rfl | ⟨3, _⟩ => rfl)
  have er : ridx_main_v0 (ix4 g h a d) k = ix2 k d := funext fun e => Fin.ext (by
    match e with | ⟨0, _⟩ => rfl | ⟨1, _⟩ => rfl)
  rw [el, er]
  rfl

/-- The first block of columns holds the query columns of the projection. -/
theorem v1_at (g : Fin 8) (h : Fin 64) (a : Fin 512) (c : Fin 64) :
    val_main_v1 (F := Ideal) x0 x1 (ix4 g h a c) = proj (rowOf x0 g h) (matOf x1) a (qcol c) := by
  rw [val_main_v1_apply]
  have e : idx_main_v1 (ix4 g h a c) = ix4 g h a (qcol c) := funext fun e => Fin.ext (by
    match e with | ⟨0, _⟩ => rfl | ⟨1, _⟩ => rfl | ⟨2, _⟩ => rfl | ⟨3, _⟩ => rfl)
  rw [e, v0_at]

/-- The second block of columns holds the key columns. -/
theorem v2_at (g : Fin 8) (h : Fin 64) (a : Fin 512) (c : Fin 64) :
    val_main_v2 (F := Ideal) x0 x1 (ix4 g h a c) = proj (rowOf x0 g h) (matOf x1) a (kcol c) := by
  rw [val_main_v2_apply]
  have e : idx_main_v2 (ix4 g h a c) = ix4 g h a (kcol c) := funext fun e => Fin.ext (by
    match e with | ⟨0, _⟩ => rfl | ⟨1, _⟩ => rfl | ⟨2, _⟩ => rfl | ⟨3, _⟩ => rfl)
  rw [e, v0_at]

/-- The third block of columns holds the value columns. -/
theorem v3_at (g : Fin 8) (h : Fin 64) (a : Fin 512) (c : Fin 128) :
    val_main_v3 (F := Ideal) x0 x1 (ix4 g h a c) = proj (rowOf x0 g h) (matOf x1) a (vcol c) := by
  rw [val_main_v3_apply]
  have e : idx_main_v3 (ix4 g h a c) = ix4 g h a (vcol c) := funext fun e => Fin.ext (by
    match e with | ⟨0, _⟩ => rfl | ⟨1, _⟩ => rfl | ⟨2, _⟩ => rfl | ⟨3, _⟩ => rfl)
  rw [e, v0_at]

/-! ## The scores and their row maxima -/

/-- The batched product of queries and keys at (g, h, a, b) is the score of position a against position b. -/
theorem v4_at (g : Fin 8) (h : Fin 64) (a b : Fin 512) :
    val_main_v4 (F := Ideal) x0 x1 (ix4 g h a b) = score (rowOf x0 g h) (matOf x1) a b := by
  rw [val_main_v4_apply]
  unfold score
  refine Finset.sum_congr rfl fun k _ => ?_
  have el : lidx_main_v4 (ix4 g h a b) k = ix4 g h a k := funext fun e => Fin.ext (by
    match e with | ⟨0, _⟩ => rfl | ⟨1, _⟩ => rfl | ⟨2, _⟩ => rfl | ⟨3, _⟩ => rfl)
  have er : ridx_main_v4 (ix4 g h a b) k = ix4 g h b k := funext fun e => Fin.ext (by
    match e with | ⟨0, _⟩ => rfl | ⟨1, _⟩ => rfl | ⟨2, _⟩ => rfl | ⟨3, _⟩ => rfl)
  rw [el, er, v1_at, v2_at]

/-- Putting coordinate k back on the last axis of the index (g, h, a) gives (g, h, a, k). -/
theorem lift_last (hR : S8x64x512x512.Reduces [3] S8x64x512) (g : Fin 8) (h : Fin 64) (a : Fin 512) (k : Fin 512) :
    hR.lift (ix3 g h a) k = ix4 g h a k := by
  funext c; apply Fin.ext
  fin_cases c <;> rfl

/-- The maximum over the last axis at (g, h, a) is the largest score of row a. -/
theorem v5_at (g : Fin 8) (h : Fin 64) (a : Fin 512) :
    val_main_v5 (F := Ideal) x0 x1 (ix3 g h a) = rowMax (rowOf x0 g h) (matOf x1) a := by
  have hR : S8x64x512x512.Reduces [3] S8x64x512 := by decide
  refine (Host.reduce_eq_fold_single (FloatOps.maximumf (F := Ideal) (φ := .f32)) (val_main_v4 (F := Ideal) x0 x1)
    (val_main_cst (F := Ideal)) reducesTo_S8x64x512x512_S8x64x512_d3 hR h_S_ (ix3 g h a)).trans ?_
  refine congrArg (fun f => (Finset.univ : Finset (Fin 512)).fold max (Ideal.ofBits .f32 0xFF800000#32) f)
    (funext fun b => ?_)
  exact (congrArg (val_main_v4 (F := Ideal) x0 x1) (lift_last hR g h a b)).trans (v4_at x0 x1 g h a b)

/-- Taking the maximum with minus infinity once more leaves the row maximum. -/
theorem v7_at (g : Fin 8) (h : Fin 64) (a : Fin 512) :
    val_main_v7 (F := Ideal) x0 x1 (ix3 g h a) = rowMax (rowOf x0 g h) (matOf x1) a := by
  rw [val_main_v7_apply, val_main_v6_apply, val_main_cst_0_apply, v5_at]
  exact max_init_fold _ _ _

/-- The row maximum repeated along the last axis reads, at (g, h, a, b), the maximum of row a. -/
theorem v9_at (g : Fin 8) (h : Fin 64) (a b : Fin 512) :
    val_main_v9 (F := Ideal) x0 x1 (ix4 g h a b) = rowMax (rowOf x0 g h) (matOf x1) a := by
  rw [val_main_v9_apply, val_main_v8_apply]
  have e : idx_main_v8 (idx_main_v9 (ix4 g h a b)) = ix3 g h a := funext fun e => Fin.ext (by
    match e with | ⟨0, _⟩ => rfl | ⟨1, _⟩ => rfl | ⟨2, _⟩ => rfl)
  rw [e, v7_at]

/-! ## The shifted exponentials, their row sums, and the weights -/

/-- The exponential of the shifted score. -/
theorem v11_at (g : Fin 8) (h : Fin 64) (a b : Fin 512) :
    val_main_v11 (F := Ideal) x0 x1 (ix4 g h a b) = expo (rowOf x0 g h) (matOf x1) a b := by
  rw [val_main_v11_apply, val_main_v10_apply, v4_at, v9_at]
  rfl

/-- The sum over the last axis from zero is the normaliser of row a. -/
theorem v12_at (g : Fin 8) (h : Fin 64) (a : Fin 512) :
    val_main_v12 (F := Ideal) x0 x1 (ix3 g h a) = rowSum (rowOf x0 g h) (matOf x1) a := by
  rw [val_main_v12_apply, val_main_cst_1_apply]
  refine (congrArg (· + _) Ideal.ofBits_zero_f32).trans ((zero_add _).trans ?_)
  unfold rowSum
  refine Finset.sum_congr rfl fun k _ => ?_
  have e : idx_main_v12 (ix3 g h a) k = ix4 g h a k := funext fun e => Fin.ext (by
    match e with | ⟨0, _⟩ => rfl | ⟨1, _⟩ => rfl | ⟨2, _⟩ => rfl | ⟨3, _⟩ => rfl)
  rw [e, v11_at]

/-- The normaliser repeated along the last axis reads, at (g, h, a, b), the normaliser of row a. -/
theorem v14_at (g : Fin 8) (h : Fin 64) (a b : Fin 512) :
    val_main_v14 (F := Ideal) x0 x1 (ix4 g h a b) = rowSum (rowOf x0 g h) (matOf x1) a := by
  rw [val_main_v14_apply, val_main_v13_apply]
  have e : idx_main_v13 (idx_main_v14 (ix4 g h a b)) = ix3 g h a := funext fun e => Fin.ext (by
    match e with | ⟨0, _⟩ => rfl | ⟨1, _⟩ => rfl | ⟨2, _⟩ => rfl)
  rw [e, v12_at]

/-- The quotient is the attention weight. -/
theorem v15_at (g : Fin 8) (h : Fin 64) (a b : Fin 512) :
    val_main_v15 (F := Ideal) x0 x1 (ix4 g h a b) = weight (rowOf x0 g h) (matOf x1) a b := by
  rw [val_main_v15_apply, v11_at, v14_at]
  rfl

/-! ## The mixed values and the output -/

/-- The batched product of the weights with the value columns at (g, h, a, c). -/
theorem v16_at (g : Fin 8) (h : Fin 64) (a : Fin 512) (c : Fin 128) :
    val_main_v16 (F := Ideal) x0 x1 (ix4 g h a c) = mixed (rowOf x0 g h) (matOf x1) a c := by
  rw [val_main_v16_apply]
  unfold mixed
  refine Finset.sum_congr rfl fun k _ => ?_
  have el : lidx_main_v16 (ix4 g h a c) k = ix4 g h a k := funext fun e => Fin.ext (by
    match e with | ⟨0, _⟩ => rfl | ⟨1, _⟩ => rfl | ⟨2, _⟩ => rfl | ⟨3, _⟩ => rfl)
  have er : ridx_main_v16 (ix4 g h a c) k = ix4 g h k c := funext fun e => Fin.ext (by
    match e with | ⟨0, _⟩ => rfl | ⟨1, _⟩ => rfl | ⟨2, _⟩ => rfl | ⟨3, _⟩ => rfl)
  rw [el, er, v15_at, v3_at]

/-- The input plus the mixed values. -/
theorem v17_at (g : Fin 8) (h : Fin 64) (a : Fin 512) (c : Fin 128) :
    val_main_v17 (F := Ideal) x0 x1 (ix4 g h a c) = out (rowOf x0 g h) (matOf x1) a c := by
  rw [val_main_v17_apply, v16_at]
  rfl

/-! ## The two results as whole arrays -/

/-- The reference's second result is the weights of every row. -/
theorem weights_eq (x0 : (⟨Cert.ReferenceIdeal.S8x64x512x128, .f32⟩ : BufTy).Contents (Elt Ideal))
    (x1 : (⟨Cert.ReferenceIdeal.S128x256, .f32⟩ : BufTy).Contents (Elt Ideal)) :
    Cert.ReferenceIdeal.Read.val_main_v15 (F := Ideal) x0 x1 = Cert.RowAttention.weightsArray x0 x1 := by
  funext i
  obtain ⟨g, h, a, b, rfl⟩ : ∃ (g : Fin 8) (h : Fin 64) (a : Fin 512) (b : Fin 512), i = ix4 g h a b :=
    ⟨i 0, i 1, i 2, i 3, eq_ix4 i⟩
  exact v15_at x0 x1 g h a b

/-- The reference's first result is the outputs of every row. -/
theorem output_eq (x0 : (⟨Cert.ReferenceIdeal.S8x64x512x128, .f32⟩ : BufTy).Contents (Elt Ideal))
    (x1 : (⟨Cert.ReferenceIdeal.S128x256, .f32⟩ : BufTy).Contents (Elt Ideal)) :
    Cert.ReferenceIdeal.Read.val_main_v17 (F := Ideal) x0 x1 = Cert.RowAttention.outputArray x0 x1 := by
  funext i
  obtain ⟨g, h, a, c, rfl⟩ : ∃ (g : Fin 8) (h : Fin 64) (a : Fin 512) (c : Fin 128), i = ix4 g h a c :=
    ⟨i 0, i 1, i 2, i 3, eq_ix4 i⟩
  exact v17_at x0 x1 g h a c

end Cert.ReferenceRows

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«182045_j34694745817831_2_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.KernelRow.lean ====
/-
  One trip of the kernel's loop, entry by entry: from the 128 × 256 projection block W and one 1 × 512 × 128 slab of the
  input block, the trip computes the projection, cuts it into queries, keys and values, forms the score matrix, its
  row maxima, the shifted exponentials, their row sums and the quotient (the slab of weights it stores), then applies
  the weights to the values and adds the slab back (the slab of outputs it stores). Each intermediate matrix is named
  here and read at an entry as the corresponding quantity of the row specification; a change of float format is the
  identity on the extended reals, a product into the zero accumulator is the plain sum of products, a reduction along
  the columns is the fold or sum over the column coordinate, and a column laid across the columns reads its row.
-/
import proofs.«182045_j34694745817831_2_alg».proof.Proof.Gen.KernelIdeal.Skeleton
import proofs.«182045_j34694745817831_2_alg».proof.Proof.RowAttention
import proofs.«182045_j34694745817831_2_alg».proof.Proof.LibRows
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelRow

open Cert.KernelIdeal Cert.KernelIdeal.Gen Idealize.ShloMosaic Idealize.ShloMosaic.ValueIdx Cert.RowAttention

variable (v0 : Vec Ideal S128x256 .f32) (v4 : Vec Ideal S1x512x128 .f32)

/-- The slab as a 512 × 128 matrix. -/
def slab (v4 : Vec Ideal S1x512x128 .f32) : Fin 512 → Fin 128 → EReal := fun a c => v4 (ix3 (0 : Fin 1) a c)

/-! ## The trip's intermediate matrices -/

/-- Queries: columns 0 to 63 of the projection. -/
def queries : FVec Ideal S512x64 .f32 :=
  extractStridedSlice S512x64 ![0, 0] (k0_pay2 (F := Ideal) v0 v4) slices_S512x256_o0_0_S512x64
/-- Keys: columns 64 to 127. -/
def keys : FVec Ideal S512x64 .f32 :=
  extractStridedSlice S512x64 ![0, 64] (k0_pay2 (F := Ideal) v0 v4) slices_S512x256_o0_64_S512x64
/-- Values: columns 128 to 255. -/
def values : FVec Ideal S512x128 .f32 :=
  extractStridedSlice S512x128 ![0, 128] (k0_pay2 (F := Ideal) v0 v4) slices_S512x256_o0_128_S512x128
/-- Scores: queries times the transposed keys. -/
def scores : FVec Ideal S512x512 .f32 :=
  matmul dot_S512x64_S64x512_S512x512_1_0_0_1_n_n none (truncf .bf16 (queries v0 v4) bitsLt_bf16_f32)
    (transpose S64x512 [1, 0] (truncf .bf16 (keys v0 v4) bitsLt_bf16_f32) transposes_S512x64_p1_0_S64x512)
    (constant S512x512 .f32 0x00000000#32)
/-- Row maxima of the scores. -/
def maxima : FVec Ideal S512 .f32 :=
  multiReduction .maximumf [1] S512 (scores v0 v4) 0xFF800000#32 reduces_S512x512_S512 (.inl rfl) rfl
/-- Shifted exponentials. -/
def exps : FVec Ideal S512x512 .f32 :=
  exp (subf (scores v0 v4) (broadcastTo S512x512 (shapeCast S512x1 (maxima v0 v4) shapeCasts_S512_S512x1) broadcasts_S512x1_S512x512))
/-- Row sums of the exponentials. -/
def sums : FVec Ideal S512 .f32 :=
  multiReduction .add [1] S512 (exps v0 v4) 0x00000000#32 reduces_S512x512_S512 (.inl rfl) rfl
/-- The weights. -/
def weights : FVec Ideal S512x512 .f32 :=
  divf (exps v0 v4) (broadcastTo S512x512 (shapeCast S512x1 (sums v0 v4) shapeCasts_S512_S512x1) broadcasts_S512x1_S512x512)

/-- The weights are the third payload. -/
theorem pay3_eq : k0_pay3 (F := Ideal) v0 v4 = weights v0 v4 := rfl

/-! ## Each matrix at an entry -/

theorem pay1_apply (a : Fin 512) (c : Fin 128) : k0_pay1 (F := Ideal) v4 (ix2 a c) = slab v4 a c := by
  unfold k0_pay1
  exact shapeCast_1ab_ab_apply v4 _ a c

theorem pay2_apply (a : Fin 512) (d : Fin 256) :
    k0_pay2 (F := Ideal) v0 v4 (ix2 a d) = proj (slab v4) (matOf v0) a d := by
  unfold k0_pay2
  refine (Cert.LibMatmul.matmul_plain_zero_apply none _ _ a d).trans ?_
  refine Finset.sum_congr rfl fun c _ => ?_
  exact congrArg (fun z => z * v0 (ix2 c d)) (pay1_apply v4 a c)

theorem queries_apply (a : Fin 512) (c : Fin 64) :
    queries v0 v4 (ix2 a c) = proj (slab v4) (matOf v0) a (qcol c) := by
  unfold queries
  exact (slice2_axis1_apply 0 _ _ a c (qcol c) (by simp [qcol])).trans (pay2_apply v0 v4 a (qcol c))

theorem keys_apply (a : Fin 512) (c : Fin 64) :
    keys v0 v4 (ix2 a c) = proj (slab v4) (matOf v0) a (kcol c) := by
  unfold keys
  exact (slice2_axis1_apply 64 _ _ a c (kcol c) (by simp [kcol])).trans (pay2_apply v0 v4 a (kcol c))

theorem values_apply (a : Fin 512) (c : Fin 128) :
    values v0 v4 (ix2 a c) = proj (slab v4) (matOf v0) a (vcol c) := by
  unfold values
  exact (slice2_axis1_apply 128 _ _ a c (vcol c) (by simp [vcol])).trans (pay2_apply v0 v4 a (vcol c))

theorem scores_apply (a b : Fin 512) : scores v0 v4 (ix2 a b) = score (slab v4) (matOf v0) a b := by
  unfold scores
  refine (Cert.LibMatmul.matmul_plain_zero_apply none _ _ a b).trans ?_
  refine Finset.sum_congr rfl fun c _ => ?_
  have hk : transpose S64x512 [1, 0] (truncf .bf16 (keys v0 v4) bitsLt_bf16_f32) transposes_S512x64_p1_0_S64x512 (ix2 c b)
      = keys v0 v4 (ix2 b c) := transpose_ix2_apply _ _ c b
  rw [hk, keys_apply]
  exact congrArg (fun z => z * _) (queries_apply v0 v4 a c)

theorem maxima_apply (a : Fin 512) : maxima v0 v4 (ix1 a) = rowMax (slab v4) (matOf v0) a := by
  unfold maxima
  refine (Ideal.multiReduction_maximumf_single (scores v0 v4) 0xFF800000#32 reduces_S512x512_S512 _ _ (ix1 a)).trans ?_
  unfold rowMax
  refine congrArg (Finset.fold max _ · Finset.univ) (funext fun b => ?_)
  show scores v0 v4 (reduces_S512x512_S512.lift (ix1 a) b) = _
  rw [Cert.LibRows.lift_axis1]
  exact scores_apply v0 v4 a _

theorem exps_apply (a b : Fin 512) : exps v0 v4 (ix2 a b) = expo (slab v4) (matOf v0) a b := by
  unfold exps expo
  show Ideal.exp (scores v0 v4 (ix2 a b) - broadcastTo S512x512 (shapeCast S512x1 (maxima v0 v4) shapeCasts_S512_S512x1) broadcasts_S512x1_S512x512 (ix2 a b)) = _
  rw [Cert.LibRows.colBroadcastTo_apply, scores_apply, maxima_apply]

theorem sums_apply (a : Fin 512) : sums v0 v4 (ix1 a) = rowSum (slab v4) (matOf v0) a := by
  unfold sums
  refine (Ideal.multiReduction_add_single (exps v0 v4) 0x00000000#32 reduces_S512x512_S512 _ _ (ix1 a)).trans ?_
  unfold rowSum
  refine Finset.sum_congr rfl fun b _ => ?_
  rw [Cert.LibRows.lift_axis1]
  exact exps_apply v0 v4 a _

theorem weights_apply (a b : Fin 512) : weights v0 v4 (ix2 a b) = weight (slab v4) (matOf v0) a b := by
  unfold weights weight
  show Ideal.div (exps v0 v4 (ix2 a b)) (broadcastTo S512x512 (shapeCast S512x1 (sums v0 v4) shapeCasts_S512_S512x1) broadcasts_S512x1_S512x512 (ix2 a b)) = _
  rw [Cert.LibRows.colBroadcastTo_apply, exps_apply, sums_apply]

/-! ## The two stored slabs -/

/-- The stored slab of weights at (0, a, b). -/
theorem pay4_apply (a b : Fin 512) :
    k0_pay4 (F := Ideal) v0 v4 (ix3 (0 : Fin 1) a b) = weight (slab v4) (matOf v0) a b := by
  unfold k0_pay4
  rw [pay3_eq]
  exact (shapeCast_ab_1ab_apply _ _ 0 a b).trans (weights_apply v0 v4 a b)

/-- The stored slab of outputs at (0, a, c). -/
theorem pay5_apply (a : Fin 512) (c : Fin 128) :
    k0_pay5 (F := Ideal) v0 v4 (ix3 (0 : Fin 1) a c) = out (slab v4) (matOf v0) a c := by
  unfold k0_pay5
  rw [pay3_eq]
  refine (shapeCast_ab_1ab_apply _ _ 0 a c).trans ?_
  unfold out mixed
  show k0_pay1 (F := Ideal) v4 (ix2 a c) + _ = _
  rw [pay1_apply]
  refine congrArg (slab v4 a c + ·) ?_
  refine (Cert.LibMatmul.matmul_plain_zero_apply none _ _ a c).trans ?_
  refine Finset.sum_congr rfl fun b _ => ?_
  show weights v0 v4 (ix2 a b) * values v0 v4 (ix2 b c) = _
  rw [weights_apply, values_apply]

end Cert.KernelRow

end
-- ==== Proof.BlockSlabs.lean ====
/-
  What one grid point leaves in its two output blocks. The body runs eight trips; trip k reads slab k of the 8 × 512 × 128
  input block, and stores slab k of the weights block and slab k of the outputs block, each slab a function of the
  projection block and of that input slab alone. So every stored slab is the restriction, to its own rectangle, of ONE
  function of the whole block index (r, a, b): the row specification applied to row r of the input block. The eight
  rectangles cover the block, hence the block read back after the run is that function, whatever the buffer held before.
-/
import proofs.«182045_j34694745817831_2_alg».proof.Proof.Gen.KernelIdeal.Frame
import proofs.«182045_j34694745817831_2_alg».proof.Proof.KernelRow
import Idealize.ShloMosaic.Lib.Writes
import Idealize.ShloMosaic.Lib.Pipeline.Value

set_option maxRecDepth 16384

noncomputable section

namespace Cert.KernelBlock

open Cert.KernelIdeal Cert.KernelIdeal.Gen Idealize.ShloMosaic Idealize.ShloMosaic.ValueIdx Cert.RowAttention
open Idealize.SL.Sem

/-- Row r of an input block, as a 512 × 128 matrix. -/
def blockRow (x0 : Vec Ideal S8x512x128 .f32) (r : Fin 8) : Fin 512 → Fin 128 → EReal := fun a c => x0 (ix3 r a c)

/-- The outputs block as one function of the block index. -/
def outBlock (x0 : Vec Ideal S8x512x128 .f32) (x1 : Vec Ideal S128x256 .f32) : S8x512x128.Idx → EReal :=
  fun y => out (blockRow x0 (y 0)) (matOf x1) (y 1) (y 2)

/-- The weights block as one function of the block index. -/
def weightBlock (x0 : Vec Ideal S8x512x128 .f32) (x1 : Vec Ideal S128x256 .f32) : S8x512x512.Idx → EReal :=
  fun y => weight (blockRow x0 (y 0)) (matOf x1) (y 1) (y 2)

/-! ## The loads -/

/-- The projection block loaded whole is the block. -/
theorem load_proj (arg2 : Memref sig .tc .vmem S128x256 .f32) (harg2 : arg2.IsWhole) (x1 : Vec Ideal S128x256 .f32) :
    View.readAt (Elt Ideal) arg2.view (Rect.unit (s := S128x256) ![0, 0] S128x256.size inb_S128x256_S128x256_0_0).toLoadRect (harg2.unread x1) = x1 := by
  rw [View.readAt_eq_ld, harg2.read_unread]
  exact View.ld_unit_zero (S := S128x256) (funext fun a => by fin_cases a <;> rfl) _ x1

/-- Trip k's row of the block. -/
def tripRow (k : Fin k0_t1_loop.trips) : Fin 8 := ⟨k.val, Nat.lt_of_lt_of_le k.isLt k0_t1_abs.2.1⟩

/-- Slab k of the input block, as a matrix, is row k of the block. -/
theorem load_slab (arg1 : Memref sig .tc .vmem S8x512x128 .f32) (harg1 : arg1.IsWhole) (x0 : Vec Ideal S8x512x128 .f32)
    (k : Fin k0_t1_loop.trips) :
    Cert.KernelRow.slab (View.readAt (Elt Ideal) arg1.view (Rect.unit (s := S8x512x128) (k0_off1 k) S1x512x128.size (k0_off1_inb k)).toLoadRect (harg1.unread x0))
      = blockRow x0 (tripRow k) := by
  funext a c
  unfold Cert.KernelRow.slab blockRow
  rw [View.readAt_eq_ld, harg1.read_unread]
  show x0 ((Rect.unit (s := S8x512x128) (k0_off1 k) S1x512x128.size (k0_off1_inb k)).idx (ix3 (0 : Fin 1) a c)) = _
  refine congrArg x0 (funext fun ax => Fin.ext ?_)
  have e := k0_off1_eq k
  match ax with
  | ⟨0, _⟩ => show k0_off1 k 0 + 1 * 0 = k.val; rw [e]; rfl
  | ⟨1, _⟩ => show k0_off1 k 1 + 1 * a.val = a.val; rw [e]; show 0 + 1 * a.val = a.val; omega
  | ⟨2, _⟩ => show k0_off1 k 2 + 1 * c.val = c.val; rw [e]; show 0 + 1 * c.val = c.val; omega

/-- Where trip k's outputs rectangle places its own index (u, a, c): at (k, a, c). -/
theorem emb_out (k : Fin k0_t1_loop.trips) (x : S1x512x128.Idx) :
    (Rect.unit (s := S8x512x128) (k0_off1 k) S1x512x128.size (k0_off1_inb k)).emb x = ix3 (tripRow k) (x 1) (x 2) := by
  have e := k0_off1_eq k
  have h0 : (x 0).val = 0 := by have h1 : (x 0).val < 1 := (x 0).isLt; omega
  refine funext fun ax => Fin.ext ?_
  match ax with
  | ⟨0, _⟩ => show k0_off1 k 0 + 1 * (x 0).val = k.val; rw [e, h0]; rfl
  | ⟨1, _⟩ => show k0_off1 k 1 + 1 * (x 1).val = (x 1).val; rw [e]; show 0 + 1 * (x 1).val = (x 1).val; omega
  | ⟨2, _⟩ => show k0_off1 k 2 + 1 * (x 2).val = (x 2).val; rw [e]; show 0 + 1 * (x 2).val = (x 2).val; omega

/-- The same for the weights rectangle. -/
theorem emb_weight (k : Fin k0_t1_loop.trips) (x : S1x512x512.Idx) :
    (Rect.unit (s := S8x512x512) (k0_off2 k) S1x512x512.size (k0_off2_inb k)).emb x = ix3 (tripRow k) (x 1) (x 2) := by
  have e := k0_off2_eq k
  have h0 : (x 0).val = 0 := by have h1 : (x 0).val < 1 := (x 0).isLt; omega
  refine funext fun ax => Fin.ext ?_
  match ax with
  | ⟨0, _⟩ => show k0_off2 k 0 + 1 * (x 0).val = k.val; rw [e, h0]; rfl
  | ⟨1, _⟩ => show k0_off2 k 1 + 1 * (x 1).val = (x 1).val; rw [e]; show 0 + 1 * (x 1).val = (x 1).val; omega
  | ⟨2, _⟩ => show k0_off2 k 2 + 1 * (x 2).val = (x 2).val; rw [e]; show 0 + 1 * (x 2).val = (x 2).val; omega

/-- An index of a one-slab shape has first coordinate zero. -/
theorem slab_index {n m : Nat} (x : (⟨3, ![1, n, m]⟩ : Shape).Idx) : x = ix3 (0 : Fin 1) (x 1) (x 2) := by
  funext ax; apply Fin.ext
  match ax with
  | ⟨0, _⟩ => show (x 0).val = 0; have h1 : (x 0).val < 1 := (x 0).isLt; omega
  | ⟨1, _⟩ => rfl
  | ⟨2, _⟩ => rfl

/-! ## The pieces -/

section Pieces

variable (𝒱 : Variants) (c : Dev nD) (bd : Option 𝒱.V) (i : grid0.Coords)
  (arg1 : Memref sig .tc .vmem S8x512x128 .f32) (harg1 : arg1.IsWhole) (arg2 : Memref sig .tc .vmem S128x256 .f32) (harg2 : arg2.IsWhole)
  (arg3 : Memref sig .tc .vmem S8x512x128 .f32) (harg3 : arg3.IsWhole) (arg4 : Memref sig .tc .vmem S8x512x512 .f32) (harg4 : arg4.IsWhole)
  (x0 : Vec Ideal S8x512x128 .f32) (x1 : Vec Ideal S128x256 .f32)

/-- Trip k's stored slab of outputs, at its own index, is the outputs block at (k, a, c). -/
theorem out_slab (k : Fin k0_t1_loop.trips) (x : S1x512x128.Idx) :
    k0_pay5 (F := Ideal) x1 (View.readAt (Elt Ideal) arg1.view (Rect.unit (s := S8x512x128) (k0_off1 k) S1x512x128.size (k0_off1_inb k)).toLoadRect (harg1.unread x0)) x
      = outBlock x0 x1 (ix3 (tripRow k) (x 1) (x 2)) := by
  obtain ⟨a, b, rfl⟩ : ∃ (a : Fin 512) (b : Fin 128), x = ix3 (0 : Fin 1) a b := ⟨x 1, x 2, slab_index x⟩
  show _ = out (blockRow x0 (tripRow k)) (matOf x1) a b
  rw [Cert.KernelRow.pay5_apply, load_slab]

/-- Trip k's stored slab of weights, at its own index, is the weights block at (k, a, b). -/
theorem weight_slab (k : Fin k0_t1_loop.trips) (x : S1x512x512.Idx) :
    k0_pay4 (F := Ideal) x1 (View.readAt (Elt Ideal) arg1.view (Rect.unit (s := S8x512x128) (k0_off1 k) S1x512x128.size (k0_off1_inb k)).toLoadRect (harg1.unread x0)) x
      = weightBlock x0 x1 (ix3 (tripRow k) (x 1) (x 2)) := by
  obtain ⟨a, b, rfl⟩ : ∃ (a : Fin 512) (b : Fin 512), x = ix3 (0 : Fin 1) a b := ⟨x 1, x 2, slab_index x⟩
  show _ = weight (blockRow x0 (tripRow k)) (matOf x1) a b
  rw [Cert.KernelRow.pay4_apply, load_slab]

/-- Trip k's one piece of the outputs block restricts the block function. -/
theorem trip_out (k : Fin k0_t1_loop.trips) :
    ∀ p ∈ (trip_k0_t1 (F := Ideal) 𝒱 c bd i arg1 harg1 arg2 harg2 arg3 harg3 arg4 harg4 x1 (harg1.unread x0) k).1,
      ∀ x : p.1.shape.Idx, p.2 x = outBlock x0 x1 (p.1.emb x) := by
  unfold trip_k0_t1
  dsimp only
  intro p hp x
  rw [List.mem_singleton] at hp
  subst hp
  exact (out_slab arg1 harg1 x0 x1 k x).trans (congrArg (outBlock x0 x1) (emb_out k x).symm)

/-- Trip k's one piece of the weights block restricts the block function. -/
theorem trip_weight (k : Fin k0_t1_loop.trips) :
    ∀ p ∈ (trip_k0_t1 (F := Ideal) 𝒱 c bd i arg1 harg1 arg2 harg2 arg3 harg3 arg4 harg4 x1 (harg1.unread x0) k).2.1,
      ∀ x : p.1.shape.Idx, p.2 x = weightBlock x0 x1 (p.1.emb x) := by
  unfold trip_k0_t1
  dsimp only
  intro p hp x
  rw [List.mem_singleton] at hp
  subst hp
  exact (weight_slab arg1 harg1 x0 x1 k x).trans (congrArg (weightBlock x0 x1) (emb_weight k x).symm)

/-- So do the pieces of any number of trips. -/
theorem trips_pieces (n : ℕ) :
    (∀ p ∈ (pb_k0_t1 (F := Ideal) 𝒱 c bd i arg1 harg1 arg2 harg2 arg3 harg3 arg4 harg4 x1 (harg1.unread x0) n).1,
        ∀ x : p.1.shape.Idx, p.2 x = outBlock x0 x1 (p.1.emb x))
    ∧ (∀ p ∈ (pb_k0_t1 (F := Ideal) 𝒱 c bd i arg1 harg1 arg2 harg2 arg3 harg3 arg4 harg4 x1 (harg1.unread x0) n).2,
        ∀ x : p.1.shape.Idx, p.2 x = weightBlock x0 x1 (p.1.emb x)) := by
  induction n with
  | zero => exact ⟨fun p hp => absurd hp List.not_mem_nil, fun p hp => absurd hp List.not_mem_nil⟩
  | succ n ih =>
    rw [pb_k0_t1.eq_2]
    unfold pb_k0_t1Step
    split
    · rename_i h
      refine ⟨fun p hp => ?_, fun p hp => ?_⟩
      · rcases List.mem_append.mp hp with hp | hp
        · exact trip_out 𝒱 c bd i arg1 harg1 arg2 harg2 arg3 harg3 arg4 harg4 x0 x1 ⟨n, h⟩ p hp
        · exact ih.1 p hp
      · rcases List.mem_append.mp hp with hp | hp
        · exact trip_weight 𝒱 c bd i arg1 harg1 arg2 harg2 arg3 harg3 arg4 harg4 x0 x1 ⟨n, h⟩ p hp
        · exact ih.2 p hp
    · exact ih

end Pieces

/-! ## The two blocks after the body -/

/-- The outputs block a point leaves is the block function of the point's input blocks. -/
theorem out_block_eq (c : Dev nD) (i : grid0.Coords)
    (arg1 : Memref sig .tc .vmem S8x512x128 .f32) (harg1 : arg1.IsWhole) (arg2 : Memref sig .tc .vmem S128x256 .f32) (harg2 : arg2.IsWhole)
    (arg3 : Memref sig .tc .vmem S8x512x128 .f32) (harg3 : arg3.IsWhole) (arg4 : Memref sig .tc .vmem S8x512x512 .f32) (harg4 : arg4.IsWhole)
    (x0 : Vec Ideal S8x512x128 .f32) (x1 : Vec Ideal S128x256 .f32) :
    out0_A_2 (F := Ideal) c i arg1 harg1 arg2 harg2 arg3 harg3 arg4 harg4 x0 x1 = outBlock x0 x1 := by
  funext y
  unfold out0_A_2
  refine View.read_writes_apply_of_pieces _ _ (outBlock x0 x1) _ ?_ y
    (cover0_A_2 c i arg1 harg1 arg2 harg2 arg3 harg3 arg4 harg4 x0 x1 y)
  unfold kernelRun0_A
  dsimp only
  rw [load_proj]
  exact (trips_pieces Variants.none c none i arg1 harg1 arg2 harg2 arg3 harg3 arg4 harg4 x0 x1 _).1

/-- The weights block a point leaves is the block function of the point's input blocks. -/
theorem weight_block_eq (c : Dev nD) (i : grid0.Coords)
    (arg1 : Memref sig .tc .vmem S8x512x128 .f32) (harg1 : arg1.IsWhole) (arg2 : Memref sig .tc .vmem S128x256 .f32) (harg2 : arg2.IsWhole)
    (arg3 : Memref sig .tc .vmem S8x512x128 .f32) (harg3 : arg3.IsWhole) (arg4 : Memref sig .tc .vmem S8x512x512 .f32) (harg4 : arg4.IsWhole)
    (x0 : Vec Ideal S8x512x128 .f32) (x1 : Vec Ideal S128x256 .f32) :
    out0_A_3 (F := Ideal) c i arg1 harg1 arg2 harg2 arg3 harg3 arg4 harg4 x0 x1 = weightBlock x0 x1 := by
  funext y
  unfold out0_A_3
  refine View.read_writes_apply_of_pieces _ _ (weightBlock x0 x1) _ ?_ y
    (cover0_A_3 c i arg1 harg1 arg2 harg2 arg3 harg3 arg4 harg4 x0 x1 y)
  unfold kernelRun0_A
  dsimp only
  rw [load_proj]
  exact (trips_pieces Variants.none c none i arg1 harg1 arg2 harg2 arg3 harg3 arg4 harg4 x0 x1 _).2

end Cert.KernelBlock

end
-- ==== Proof.Arrays.lean ====
/-
  From blocks to arrays. The 8 × 64 rows of the input are numbered row-major, n = 64 g + h, and the kernel works on the
  flat 512 × 512 × 128 array of rows: grid point t stages rows 8 t to 8 t + 7 (and the whole projection matrix), and
  writes back the outputs and the weights of those rows. So what point t writes back is block t of ONE function of the
  flat input: row n of the result is the row specification applied to row n of the input. The 64 blocks tile the 512
  rows, hence after the run each flat result array is that function. Reading the flat arrays back at (g, h, ·, ·)
  (a change of shape keeps the row-major position) gives the outputs and the weights of row (g, h) of the original
  input: the two whole-array functions of the specification.
-/
import proofs.«182045_j34694745817831_2_alg».proof.Proof.Gen.KernelIdeal.Frame
import proofs.«182045_j34694745817831_2_alg».proof.Proof.BlockSlabs
import Idealize.ShloMosaic.Lib.Pipeline.Value
import Idealize.ShloMosaic.Lib.StableHlo.Run

set_option maxRecDepth 16384

noncomputable section

namespace Cert.KernelArrays

open Cert.KernelIdeal Cert.KernelIdeal.Gen Idealize.ShloMosaic Idealize.ShloMosaic.TcCoe Idealize.ShloMosaic.ValueIdx
open Cert.RowAttention Cert.KernelBlock Idealize.SL.Sem Idealize.ShloMosaic.StableHlo
open Idealize.ShloMosaic.Pipeline (Dat)

/-! ## The flat arrays as functions of the flat input -/

/-- Row n of the flat input, as a 512 × 128 matrix. -/
def flatRow (xf : S512x512x128.Idx → EReal) (n : Fin 512) : Fin 512 → Fin 128 → EReal := fun a c => xf (ix3 n a c)

/-- The flat array of outputs. -/
def flatOut (xf : S512x512x128.Idx → EReal) (w : S128x256.Idx → EReal) : S512x512x128.Idx → EReal :=
  fun i => out (flatRow xf (i 0)) (matOf w) (i 1) (i 2)

/-- The flat array of weights. -/
def flatWeights (xf : S512x512x128.Idx → EReal) (w : S128x256.Idx → EReal) : S512x512x512.Idx → EReal :=
  fun i => weight (flatRow xf (i 0)) (matOf w) (i 1) (i 2)

/-- The outputs block at j is the flat outputs at i, when row j 0 of the input block is row i 0 of the flat input,
    the projection block is the projection matrix, and the positions inside the row agree. -/
theorem outBlock_at (x0 : Vec Ideal S8x512x128 .f32) (x1 : Vec Ideal S128x256 .f32)
    (xf : S512x512x128.Idx → EReal) (w : S128x256.Idx → EReal) (j : S8x512x128.Idx) (i : S512x512x128.Idx)
    (h0 : ∀ (a : Fin 512) (c : Fin 128), x0 (ix3 (j 0) a c) = xf (ix3 (i 0) a c))
    (h1 : ∀ (c : Fin 128) (d : Fin 256), x1 (ix2 c d) = w (ix2 c d))
    (e1 : (j 1).val = (i 1).val) (e2 : (j 2).val = (i 2).val) : outBlock x0 x1 j = flatOut xf w i := by
  unfold outBlock flatOut
  have hr : blockRow x0 (j 0) = flatRow xf (i 0) := funext fun a => funext fun c => h0 a c
  have hw : matOf x1 = matOf w := funext fun c => funext fun d => h1 c d
  have h1' : (j 1 : Fin 512) = i 1 := Fin.ext e1
  have h2' : (j 2 : Fin 128) = i 2 := Fin.ext e2
  rw [hr, hw, h1', h2']

/-- The same for the weights block. -/
theorem weightBlock_at (x0 : Vec Ideal S8x512x128 .f32) (x1 : Vec Ideal S128x256 .f32)
    (xf : S512x512x128.Idx → EReal) (w : S128x256.Idx → EReal) (j : S8x512x512.Idx) (i : S512x512x512.Idx)
    (h0 : ∀ (a : Fin 512) (c : Fin 128), x0 (ix3 (j 0) a c) = xf (ix3 (i 0) a c))
    (h1 : ∀ (c : Fin 128) (d : Fin 256), x1 (ix2 c d) = w (ix2 c d))
    (e1 : (j 1).val = (i 1).val) (e2 : (j 2).val = (i 2).val) : weightBlock x0 x1 j = flatWeights xf w i := by
  unfold weightBlock flatWeights
  have hr : blockRow x0 (j 0) = flatRow xf (i 0) := funext fun a => funext fun c => h0 a c
  have hw : matOf x1 = matOf w := funext fun c => funext fun d => h1 c d
  have h1' : (j 1 : Fin 512) = i 1 := Fin.ext e1
  have h2' : (j 2 : Fin 512) = i 2 := Fin.ext e2
  rw [hr, hw, h1', h2']

/-! ## The index maps, decided over the grid -/

/-- At point t every window but the projection's is at block (t, 0, 0); the projection's is at (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every block of eight rows is some point's outputs block, -/
theorem idx_onto_out : ∀ q : Fin 64, ∃ t : Fin cfg0.N, win0_2.index t = ![q.val, 0, 0] :=
  (by decide +kernel : ∀ q : Fin 64, ∃ t : Fin grid0.N, win0_2.index t = ![q.val, 0, 0])

/-- and some point's weights block. -/
theorem idx_onto_weights : ∀ q : Fin 64, ∃ t : Fin cfg0.N, win0_3.index t = ![q.val, 0, 0] :=
  (by decide +kernel : ∀ q : Fin 64, ∃ t : Fin grid0.N, win0_3.index t = ![q.val, 0, 0])

variable (m : (ℓ : Loc nD τ sig) → Buf (Elt Ideal) ℓ) (ρ : Dev nD → PrngReg)

/-! ## What a point writes back -/

/-- The input block of point t at (r, a, c) is the flat input at (8 t + r, a, c), spelt through the outputs block's
    placement of (r, ·, ·). -/
theorem in_block (c : Dev nD) (t : Fin cfg0.N) (j0 : Fin 8) (i : S512x512x128.Idx)
    (hi : (i 0).val = win0_2.index t (0 : Fin 3) * 8 + 1 * j0.val) (a : Fin 512) (b : Fin 128) :
    iblk m c 0 t (ix3 j0 a b) = V m c main_v0 (ix3 (i 0) a b) := by
  obtain ⟨e00, e01, e02, e10, e11, e20, e21, e22, e30, e31, e32⟩ := idx_facts t
  unfold iblk
  show V m c main_v0 (((cfg0.win 0).blk t).view.emb (ix3 j0 a b)) = V m c main_v0 (ix3 (i 0) a b)
  refine congrArg (V m c main_v0) (funext fun ax => Fin.ext ?_)
  match ax with
  | ⟨0, _⟩ => show win0_0.index t (0 : Fin 3) * 8 + 1 * j0.val = (i 0).val; rw [hi, e00, e20]
  | ⟨1, _⟩ => show win0_0.index t (1 : Fin 3) * 512 + 1 * a.val = a.val; rw [e01]; omega
  | ⟨2, _⟩ => show win0_0.index t (2 : Fin 3) * 128 + 1 * b.val = b.val; rw [e02]; omega

/-- The projection block of every point is the projection matrix. -/
theorem proj_block (c : Dev nD) (t : Fin cfg0.N) (a : Fin 128) (d : Fin 256) :
    iblk m c 1 t (ix2 a d) = V m c main_arg1 (ix2 a d) := by
  obtain ⟨e00, e01, e02, e10, e11, e20, e21, e22, e30, e31, e32⟩ := idx_facts t
  unfold iblk
  show V m c main_arg1 (((cfg0.win 1).blk t).view.emb (ix2 a d)) = V m c main_arg1 (ix2 a d)
  refine congrArg (V m c main_arg1) (funext fun ax => Fin.ext ?_)
  match ax with
  | ⟨0, _⟩ => show win0_1.index t (0 : Fin 2) * 128 + 1 * a.val = a.val; rw [e10]; omega
  | ⟨1, _⟩ => show win0_1.index t (1 : Fin 2) * 256 + 1 * d.val = d.val; rw [e11]; omega

/-- What point t writes back to the flat outputs is block t of the flat outputs function. -/
theorem flushed_out (c : Dev nD) (t : Fin cfg0.N) :
    (dats m 0 c).flushed 2 t
      = ((cfg0.win 2).blk t).view.read (Elt Ideal) (flatOut (V m c main_v0) (V m c main_arg1)) := by
  show (cfg0.win 2).cut (grid0.coords t) ((dats m 0 c).after 2 t) = _
  rw [after0_2]
  unfold outsAt0
  dsimp only
  rw [out_block_eq]
  obtain ⟨e00, e01, e02, e10, e11, e20, e21, e22, e30, e31, e32⟩ := idx_facts t
  funext j
  show outBlock (iblk m c 0 t) (iblk m c 1 t) j
    = flatOut (V m c main_v0) (V m c main_arg1) (((cfg0.win 2).blk t).view.emb j)
  refine outBlock_at (iblk m c 0 t) (iblk m c 1 t) (V m c main_v0) (V m c main_arg1) j
    (((cfg0.win 2).blk t).view.emb j) (fun a b => ?_) (fun a d => proj_block m c t a d) ?_ ?_
  · exact in_block m c t (j 0) (((cfg0.win 2).blk t).view.emb j) rfl a b
  · show (j 1).val = win0_2.index t (1 : Fin 3) * 512 + 1 * (j 1).val; rw [e21]; omega
  · show (j 2).val = win0_2.index t (2 : Fin 3) * 128 + 1 * (j 2).val; rw [e22]; omega

/-- What point t writes back to the flat weights is block t of the flat weights function. -/
theorem flushed_weights (c : Dev nD) (t : Fin cfg0.N) :
    (dats m 0 c).flushed 3 t
      = ((cfg0.win 3).blk t).view.read (Elt Ideal) (flatWeights (V m c main_v0) (V m c main_arg1)) := by
  show (cfg0.win 3).cut (grid0.coords t) ((dats m 0 c).after 3 t) = _
  rw [after0_3]
  unfold outsAt0
  dsimp only
  rw [weight_block_eq]
  obtain ⟨e00, e01, e02, e10, e11, e20, e21, e22, e30, e31, e32⟩ := idx_facts t
  funext j
  show weightBlock (iblk m c 0 t) (iblk m c 1 t) j
    = flatWeights (V m c main_v0) (V m c main_arg1) (((cfg0.win 3).blk t).view.emb j)
  refine weightBlock_at (iblk m c 0 t) (iblk m c 1 t) (V m c main_v0) (V m c main_arg1) j
    (((cfg0.win 3).blk t).view.emb j) (fun a b => ?_) (fun a d => proj_block m c t a d) ?_ ?_
  · refine in_block m c t (j 0) (ix3 (((cfg0.win 3).blk t).view.emb j 0) 0 0) ?_ a b
    show win0_3.index t (0 : Fin 3) * 8 + 1 * (j 0).val = win0_2.index t (0 : Fin 3) * 8 + 1 * (j 0).val
    rw [e30, e20]
  · show (j 1).val = win0_3.index t (1 : Fin 3) * 512 + 1 * (j 1).val; rw [e31]; omega
  · show (j 2).val = win0_3.index t (2 : Fin 3) * 512 + 1 * (j 2).val; rw [e32]; omega

/-! ## The cover -/

theorem mem_blk_out (t : Fin cfg0.N) (i : S512x512x128.Idx) :
    i ∈ ((cfg0.win 2).blk t).view.set ↔ ∀ a : Fin 3, win0_2.index t a * S8x512x128.size a ≤ (i a).val
      ∧ (i a).val < win0_2.index t a * S8x512x128.size a + S8x512x128.size a := by
  show i ∈ ((View.whole main_v1_0).slice (win0_2.rect t)).set ↔ _
  rw [View.set_slice_whole, Rect.mem_set_unit]
  exact Iff.rfl

theorem mem_blk_weights (t : Fin cfg0.N) (i : S512x512x512.Idx) :
    i ∈ ((cfg0.win 3).blk t).view.set ↔ ∀ a : Fin 3, win0_3.index t a * S8x512x512.size a ≤ (i a).val
      ∧ (i a).val < win0_3.index t a * S8x512x512.size a + S8x512x512.size a := by
  show i ∈ ((View.whole main_v1_1).slice (win0_3.rect t)).set ↔ _
  rw [View.set_slice_whole, Rect.mem_set_unit]
  exact Iff.rfl

/-- Row n of the flat outputs lies in the block of point n / 8. -/
theorem cover_out (i : S512x512x128.Idx) :
    ∃ t : Fin cfg0.N, (cfg0.win 2).flush t = true ∧ i ∈ ((cfg0.win 2).blk t).view.set := by
  have hi0 : (i 0).val < 512 := (i 0).isLt
  have hi1 : (i 1).val < 512 := (i 1).isLt
  have hi2 : (i 2).val < 128 := (i 2).isLt
  obtain ⟨t, ht⟩ := idx_onto_out ⟨(i 0).val / 8, by omega⟩
  have q0 : win0_2.index t (0 : Fin 3) = (i 0).val / 8 := congrFun ht 0
  have q1 : win0_2.index t (1 : Fin 3) = 0 := congrFun ht 1
  have q2 : win0_2.index t (2 : Fin 3) = 0 := congrFun ht 2
  refine ⟨t, flush0_2 t, ?_⟩
  rw [mem_blk_out]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- Row n of the flat weights lies in the block of point n / 8. -/
theorem cover_weights (i : S512x512x512.Idx) :
    ∃ t : Fin cfg0.N, (cfg0.win 3).flush t = true ∧ i ∈ ((cfg0.win 3).blk t).view.set := by
  have hi0 : (i 0).val < 512 := (i 0).isLt
  have hi1 : (i 1).val < 512 := (i 1).isLt
  have hi2 : (i 2).val < 512 := (i 2).isLt
  obtain ⟨t, ht⟩ := idx_onto_weights ⟨(i 0).val / 8, by omega⟩
  have q0 : win0_3.index t (0 : Fin 3) = (i 0).val / 8 := congrFun ht 0
  have q1 : win0_3.index t (1 : Fin 3) = 0 := congrFun ht 1
  have q2 : win0_3.index t (2 : Fin 3) = 0 := congrFun ht 2
  refine ⟨t, flush0_3 t, ?_⟩
  rw [mem_blk_weights]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-! ## The flat arrays after the run -/

theorem final_out (c : Dev nD) : (dats m 0 c).arrAt 2 cfg0.N = flatOut (V m c main_v0) (V m c main_arg1) :=
  (dats m 0 c).arrAt_eq_of_cover 2 (flatOut (V m c main_v0) (V m c main_arg1)) (fun t _ => flushed_out m c t) cover_out

theorem final_weights (c : Dev nD) : (dats m 0 c).arrAt 3 cfg0.N = flatWeights (V m c main_v0) (V m c main_arg1) :=
  (dats m 0 c).arrAt_eq_of_cover 3 (flatWeights (V m c main_v0) (V m c main_arg1)) (fun t _ => flushed_weights m c t) cover_weights

end Cert.KernelArrays

end
-- ==== Proof.KernelRun.lean ====
/-
  The kernel's run, read. Before the region the input is laid out flat (row (g, h) becomes row 64 g + h: a change of shape
  keeps the row-major position); after it the two flat results are laid out back. So the first result at (g, h, a, c)
  is the flat outputs at (64 g + h, a, c), which is the output of the row specification applied to row 64 g + h of the
  flat input, which is row (g, h) of the input; likewise the weights. Every weakly fair execution of the idealized kernel
  therefore ends with its two results at the specification's whole-array functions of the arguments, the arguments unchanged.
-/
import proofs.«182045_j34694745817831_2_alg».proof.Proof.Arrays

set_option maxRecDepth 16384

noncomputable section

namespace Cert.KernelRun

open Cert.KernelIdeal Cert.KernelIdeal.Gen Idealize.ShloMosaic Idealize.ShloMosaic.TcCoe Idealize.ShloMosaic.ValueIdx
open Cert.RowAttention Cert.KernelArrays Idealize.SL.Sem Idealize.ShloMosaic.StableHlo

/-! ## The two changes of shape, at an index -/

/-- The flat number of row (g, h). -/
def flatIndex (g : Fin 8) (h : Fin 64) : Fin 512 := ⟨64 * g.val + h.val, by have := g.isLt; have := h.isLt; omega⟩

/-- Row 64 g + h of the flattened input is row (g, h) of the input. -/
theorem flatRow_reshape (x : S8x64x512x128.Idx → EReal) (g : Fin 8) (h : Fin 64) :
    flatRow (shapeCast S512x512x128 x shapeCasts_S8x64x512x128_S512x512x128) (flatIndex g h) = rowOf x g h := by
  funext a c
  unfold flatRow rowOf
  exact shapeCast_apply x _ (ix3 (flatIndex g h) a c) (ix4 g h a c) (by
    rw [Shape.rowMajor_val_four, Shape.rowMajor_val_three]
    show ((g.val * 64 + h.val) * 512 + a.val) * 128 + c.val = ((64 * g.val + h.val) * 512 + a.val) * 128 + c.val
    omega)

/-- The flat outputs of the flattened input, laid out back, are the outputs of every row. -/
theorem out_reshape (x : S8x64x512x128.Idx → EReal) (w : S128x256.Idx → EReal) :
    shapeCast S8x64x512x128 (flatOut (shapeCast S512x512x128 x shapeCasts_S8x64x512x128_S512x512x128) w)
      shapeCasts_S512x512x128_S8x64x512x128 = outputArray x w := by
  funext i
  obtain ⟨g, h, a, c, rfl⟩ : ∃ (g : Fin 8) (h : Fin 64) (a : Fin 512) (c : Fin 128), i = ix4 g h a c :=
    ⟨i 0, i 1, i 2, i 3, eq_ix4 i⟩
  refine (shapeCast_apply _ _ (ix4 g h a c) (ix3 (flatIndex g h) a c) (by
    rw [Shape.rowMajor_val_three, Shape.rowMajor_val_four]
    show ((64 * g.val + h.val) * 512 + a.val) * 128 + c.val = ((g.val * 64 + h.val) * 512 + a.val) * 128 + c.val
    omega)).trans ?_
  show out (flatRow _ (flatIndex g h)) (matOf w) a c = out (rowOf x g h) (matOf w) a c
  rw [flatRow_reshape]

/-- The flat weights of the flattened input, laid out back, are the weights of every row. -/
theorem weights_reshape (x : S8x64x512x128.Idx → EReal) (w : S128x256.Idx → EReal) :
    shapeCast S8x64x512x512 (flatWeights (shapeCast S512x512x128 x shapeCasts_S8x64x512x128_S512x512x128) w)
      shapeCasts_S512x512x512_S8x64x512x512 = weightsArray x w := by
  funext i
  obtain ⟨g, h, a, b, rfl⟩ : ∃ (g : Fin 8) (h : Fin 64) (a : Fin 512) (b : Fin 512), i = ix4 g h a b :=
    ⟨i 0, i 1, i 2, i 3, eq_ix4 i⟩
  refine (shapeCast_apply _ _ (ix4 g h a b) (ix3 (flatIndex g h) a b) (by
    rw [Shape.rowMajor_val_three, Shape.rowMajor_val_four]
    show ((64 * g.val + h.val) * 512 + a.val) * 512 + b.val = ((g.val * 64 + h.val) * 512 + a.val) * 512 + b.val
    omega)).trans ?_
  show weight (flatRow _ (flatIndex g h)) (matOf w) a b = weight (rowOf x g h) (matOf w) a b
  rw [flatRow_reshape]

variable (m : (ℓ : Loc nD τ sig) → Buf (Elt Ideal) ℓ) (ρ : Dev nD → PrngReg)

/-! ## The host lines around the region -/

/-- The region finds the flat input: the input's elements in row-major order at the flat shape. -/
theorem V_flat (c : Dev nD) :
    (V m c main_v0 : S512x512x128.Idx → EReal)
      = shapeCast S512x512x128 (m ((c : Thread nD τ).loc main_arg0)) shapeCasts_S8x64x512x128_S512x512x128 := by
  show StableHlo.after hostOps0 (fun b => m (c, b)) (Proc.devRef .tc main_v0) = _
  after_results
  rfl

/-- The first result is the flat outputs array laid out back. -/
theorem tail_out (c : Dev nD) :
    (Pipeline.afterTail₀ cfgs (dats m) 0 (V0 m) [hostOps1] c main_v2 : S8x64x512x128.Idx → EReal)
      = shapeCast S8x64x512x128 ((dats m 0 c).arrAt 2 cfg0.N) shapeCasts_S512x512x128_S8x64x512x128 := by
  unfold Pipeline.afterTail₀
  show StableHlo.after hostOps1 _ (Proc.devRef .tc main_v2) = _
  after_results
  exact congrArg (fun X : S512x512x128.Idx → EReal => shapeCast S8x64x512x128 X shapeCasts_S512x512x128_S8x64x512x128)
    (Pipeline.withArrays_arr spec0 launch0.win.arr_inj c (V0 m c) (fun w => (dats m 0 c).arrAt w cfg0.N) 2)

/-- The second result is the flat weights array laid out back. -/
theorem tail_weights (c : Dev nD) :
    (Pipeline.afterTail₀ cfgs (dats m) 0 (V0 m) [hostOps1] c main_v3 : S8x64x512x512.Idx → EReal)
      = shapeCast S8x64x512x512 ((dats m 0 c).arrAt 3 cfg0.N) shapeCasts_S512x512x512_S8x64x512x512 := by
  unfold Pipeline.afterTail₀
  show StableHlo.after hostOps1 _ (Proc.devRef .tc main_v3) = _
  after_results
  exact congrArg (fun X : S512x512x512.Idx → EReal => shapeCast S8x64x512x512 X shapeCasts_S512x512x512_S8x64x512x512)
    (Pipeline.withArrays_arr spec0 launch0.win.arr_inj c (V0 m c) (fun w => (dats m 0 c).arrAt w cfg0.N) 3)

/-- The first result is the outputs of every row of the input. -/
theorem result_out (c : Dev nD) :
    (Pipeline.afterTail₀ cfgs (dats m) 0 (V0 m) [hostOps1] c main_v2 : S8x64x512x128.Idx → EReal)
      = outputArray (m ((c : Thread nD τ).loc main_arg0)) (m ((c : Thread nD τ).loc main_arg1)) := by
  rw [tail_out, final_out, V_flat, V_main_arg1]
  exact out_reshape _ _

/-- The second result is the weights of every row of the input. -/
theorem result_weights (c : Dev nD) :
    (Pipeline.afterTail₀ cfgs (dats m) 0 (V0 m) [hostOps1] c main_v3 : S8x64x512x512.Idx → EReal)
      = weightsArray (m ((c : Thread nD τ).loc main_arg0)) (m ((c : Thread nD τ).loc main_arg1)) := by
  rw [tail_weights, final_weights, V_flat, V_main_arg1]
  exact weights_reshape _ _

/-! ## The run -/

/-- Every weakly fair execution of the idealized kernel terminates, without a fault, with its two results at the
    specification's functions of the arguments and the arguments unchanged. -/
theorem run : θ_run defs (onTc (τ := τ) (main (F := Ideal))) ⟨m, fun _ => 0, ρ⟩ fun r => ∀ c : Dev nD,
      r.2.mem ((c : Thread nD τ).loc main_v2)
        = outputArray (m ((c : Thread nD τ).loc main_arg0)) (m ((c : Thread nD τ).loc main_arg1))
      ∧ r.2.mem ((c : Thread nD τ).loc main_v3)
        = weightsArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v2 (Pipeline.mem_restRefs_of main_v2 (by decide) (by decide))).trans (result_out m c),
      ((h c).2 main_v3 (Pipeline.mem_restRefs_of main_v3 (by decide) (by decide))).trans (result_weights m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelRun

end
-- ==== Proof.lean ====
/-
  The certificate's claim, assembled. Each program runs to the end from any memory in which the inputs are finite, leaving
  its arguments as they were: for the two printed kernels that is the generated frame run; for the reference it is its
  run with the results dropped. The idealized kernel is the kernel's own text read over the extended reals: no rewrite
  was applied, so there is nothing to preserve. And the idealized kernel and the idealized reference, from memories
  agreeing on the arguments, end with equal results: both end, entry by entry, at the outputs and the weights of single-head
  attention over each of the 8 × 64 rows of the input (the kernel by its blocks of eight rows, eight trips a block, between
  two changes of shape; the reference by whole-array operations), so the two pairs of results are the same pair of
  functions of the same arguments. Finiteness of the inputs is not used: the two programs apply the same sums, folds,
  exponentials and quotients to the same operands, and the only law between them is that the maximum with minus infinity
  of a fold of max started at minus infinity is that fold.
-/
import proofs.«182045_j34694745817831_2_alg».proof.Defs
import proofs.«182045_j34694745817831_2_alg».proof.Proof.Gen.Kernel
import proofs.«182045_j34694745817831_2_alg».proof.Proof.Gen.Kernel.Skeleton
import proofs.«182045_j34694745817831_2_alg».proof.Proof.Gen.Kernel.Loops
import proofs.«182045_j34694745817831_2_alg».proof.Proof.Gen.Kernel.Launch
import proofs.«182045_j34694745817831_2_alg».proof.Proof.Gen.Kernel.Points
import proofs.«182045_j34694745817831_2_alg».proof.Proof.Gen.Kernel.Frame
import proofs.«182045_j34694745817831_2_alg».proof.Proof.Gen.KernelIdeal
import proofs.«182045_j34694745817831_2_alg».proof.Proof.Gen.KernelIdeal.Skeleton
import proofs.«182045_j34694745817831_2_alg».proof.Proof.Gen.KernelIdeal.Loops
import proofs.«182045_j34694745817831_2_alg».proof.Proof.Gen.KernelIdeal.Launch
import proofs.«182045_j34694745817831_2_alg».proof.Proof.Gen.KernelIdeal.Points
import proofs.«182045_j34694745817831_2_alg».proof.Proof.Gen.KernelIdeal.Frame
import proofs.«182045_j34694745817831_2_alg».proof.Proof.Gen.ReferenceIdeal
import proofs.«182045_j34694745817831_2_alg».proof.Proof.Gen.Pre_finite_inputs
import proofs.«182045_j34694745817831_2_alg».proof.Proof.Gen.ReferenceIdeal.Run
import proofs.«182045_j34694745817831_2_alg».proof.Proof.Gen.ReferenceIdeal.Read
import proofs.«182045_j34694745817831_2_alg».proof.Proof.ReferenceRows
import proofs.«182045_j34694745817831_2_alg».proof.Proof.KernelRun
import Idealize.ShloMosaic.Adequacy
import Idealize.ShloMosaic.Init

noncomputable section

namespace Cert.Proof

open Idealize.ShloMosaic Idealize.SL.Sem

/-- The printed kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- No operation was rewritten: nothing to preserve. -/
theorem preserves : Cert.preserves_Kernel_KernelIdeal := trivial

/-- From memories agreeing on the arguments both idealized programs end with the outputs and the weights of every row
    of the input. -/
theorem algebraic : Cert.algebraic_KernelIdeal_ReferenceIdeal := by
  intro m ρ m' ρ' _ hagree
  refine ⟨fun c => Cert.RowAttention.outputArray (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Cert.RowAttention.weightsArray (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v17_eq, Cert.ReferenceRows.output_eq, (hagree c).1, (hagree c).2]
  · rw [(h c).2.1, Cert.ReferenceIdeal.Read.val_main_v15_eq, Cert.ReferenceRows.weights_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
